-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x4096 32) (main_arg2 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  main_v8
-- ==== Kernel.lean ====
abbrev S4x2048x4096 : Shape := ⟨3, ![4, 2048, 4096]⟩
abbrev S11008x4096 : Shape := ⟨2, ![11008, 4096]⟩
abbrev S11008 : Shape := ⟨1, ![11008]⟩
abbrev S8192x4096 : Shape := ⟨2, ![8192, 4096]⟩
abbrev S_ : Shape := ⟨0, ![]⟩
abbrev S11264x4096 : Shape := ⟨2, ![11264, 4096]⟩
abbrev S11264 : Shape := ⟨1, ![11264]⟩
abbrev S1x11264 : Shape := ⟨2, ![1, 11264]⟩
abbrev S8192x11264 : Shape := ⟨2, ![8192, 11264]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩
abbrev S8192x11008 : Shape := ⟨2, ![8192, 11008]⟩
abbrev S4x2048x11008 : Shape := ⟨3, ![4, 2048, 11008]⟩

abbrev nBuf : Space → Nat
  | .hbm => 15
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S8192x4096, .f32⟩
  | .hbm, ⟨4, _⟩ => ⟨S8192x4096, .bf16⟩
  | .hbm, ⟨5, _⟩ => ⟨S_, .i32⟩
  | .hbm, ⟨6, _⟩ => ⟨S_, .i32⟩
  | .hbm, ⟨7, _⟩ => ⟨S11264x4096, .i32⟩
  | .hbm, ⟨8, _⟩ => ⟨S_, .i32⟩
  | .hbm, ⟨9, _⟩ => ⟨S_, .f32⟩
  | .hbm, ⟨10, _⟩ => ⟨S11264, .f32⟩
  | .hbm, ⟨11, _⟩ => ⟨S1x11264, .f32⟩
  | .hbm, ⟨12, _⟩ => ⟨S8192x11264, .f32⟩
  | .hbm, ⟨13, _⟩ => ⟨S8192x11008, .f32⟩
  | .hbm, ⟨14, _⟩ => ⟨S4x2048x11008, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .i32⟩
  | .local _ .vmem, ⟨3, _⟩ => ⟨S512x4096, .i32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![22, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  bitsLt_bf16_f32 : FTy.bits .bf16 < FTy.bits .f32
  pads_S11008x4096_S11264x4096_02560_000 : S11008x4096.Pads (![0, 0] : Fin 2 → Nat) ![256, 0] ![0, 0] S11264x4096
  h_S_ : 0 < S_.numel
  pads_S11008_S11264_02560 : S11008.Pads (![0] : Fin 1 → Nat) ![256] ![0] S11264
  shapeCasts_S11264_S1x11264 : S11264.ShapeCasts S1x11264
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  packedbf16_S512x4096_S512x4096_0_0 : (Rect.unit (s := S512x4096) ![0, 0] S512x4096.size inb_S512x4096_S512x4096_0_0).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  slices_S8192x11264_S8192x11008_0_0 : S8192x11264.Slices ![0, 0] S8192x11008
  shapeCasts_S8192x11008_S4x2048x11008 : S8192x11008.ShapeCasts S4x2048x11008
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S11264x4096.size a
  hwx0_1 : ∀ i : grid0.Coords, EltTy.bits .i32 = 32 ∨ (Rect.block (s := S11264x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x11264.size a
  hwx0_2 : ∀ i : grid0.Coords, EltTy.bits .f32 = 32 ∨ (Rect.block (s := S1x11264) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x11264.size a
  hwx0_3 : ∀ i : grid0.Coords, EltTy.bits .f32 = 32 ∨ (Rect.block (s := S8192x11264) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S11008x1 : Shape := ⟨2, ![11008, 1]⟩
abbrev S4x2048x11008 : Shape := ⟨3, ![4, 2048, 11008]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008x4096, .f32⟩
  | .hbm, ⟨4, _⟩ => ⟨S11008x1, .f32⟩
  | .hbm, ⟨5, _⟩ => ⟨S11008x4096, .f32⟩
  | .hbm, ⟨6, _⟩ => ⟨S11008x4096, .f32⟩
  | .hbm, ⟨7, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Pieces.lean ====
/-
  What one run of the body leaves behind, as values.

  The body has two cases. At the first inner step of an outer tile (inner grid coordinate 0) it converts the
  weight tile to floats, keeps the converted tile in the scratch buffer, and multiplies with it; at every other
  inner step it multiplies with whatever the scratch buffer already holds. In both cases the output tile is
  `(x-tile · cached-tile^T) * scale-row`: the second payload of the cached tile.

  Each buffer is written by one store that covers it, so what the buffer holds afterwards is that store's
  payload; the loads read whole buffers, so they read the buffers' contents; and in the first case the second
  read of the scratch buffer sees what the store just before it wrote.
-/
import proofs.«154673_j1726576855246_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a rank-2 store, as the constant function. -/
theorem hz : (![0, 0] : Fin 2 → Nat) = fun _ => 0 := funext fun a => by fin_cases a <;> rfl

/-- First inner step: the scratch buffer ends holding the converted weight tile. -/
theorem scratch_first (c : Dev nD) (i : grid0.Coords) (a2 : Memref sig .tc .vmem S1024x4096 .bf16) (h2 : a2.IsWhole)
    (a3 : Memref sig .tc .vmem S512x4096 .i32) (h3 : a3.IsWhole) (a4 : Memref sig .tc .vmem S1x512 .f32) (h4 : a4.IsWhole)
    (a5 : Memref sig .tc .vmem S1024x512 .f32) (h5 : a5.IsWhole) (a6 : Memref sig .tc .vmem S512x4096 .bf16) (h6 : a6.IsWhole)
    (hc : cond0_0 i) (x0 : Vec F S1024x4096 .bf16) (x1 : Vec F S512x4096 .i32) (x2 : Vec F S1x512 .f32) :
    sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h3.read_unread, View.ld_unit_zero (S := S512x4096) hz]

/-- First inner step: the output tile is the product payload of the x tile, the weight tile converted just now,
    and the scale row. -/
theorem out_first (c : Dev nD) (i : grid0.Coords) (a2 : Memref sig .tc .vmem S1024x4096 .bf16) (h2 : a2.IsWhole)
    (a3 : Memref sig .tc .vmem S512x4096 .i32) (h3 : a3.IsWhole) (a4 : Memref sig .tc .vmem S1x512 .f32) (h4 : a4.IsWhole)
    (a5 : Memref sig .tc .vmem S1024x512 .f32) (h5 : a5.IsWhole) (a6 : Memref sig .tc .vmem S512x4096 .bf16) (h6 : a6.IsWhole)
    (hc : cond0_0 i) (x0 : Vec F S1024x4096 .bf16) (x1 : Vec F S512x4096 .i32) (x2 : Vec F S1x512 .f32) :
    out0_A_3 c i a2 h2 a3 h3 a4 h4 a5 h5 a6 h6 hc x0 x1 x2 = k0_pay2 x0 (k0_pay1 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S512x4096) _ hz]
  simp only [View.readAt_eq_ld, h2.read_unread, h3.read_unread, h4.read_unread, View.ld_unit_zero (S := S1024x4096) hz,
    View.ld_unit_zero (S := S512x4096) hz, View.ld_unit_zero (S := S1x512) hz]

/-- Any later inner step: the output tile is the product payload of the x tile, the tile `xs` the scratch buffer
    holds on entry, and the scale row. -/
theorem out_later (c : Dev nD) (i : grid0.Coords) (a2 : Memref sig .tc .vmem S1024x4096 .bf16) (h2 : a2.IsWhole)
    (a3 : Memref sig .tc .vmem S512x4096 .i32) (h3 : a3.IsWhole) (a4 : Memref sig .tc .vmem S1x512 .f32) (h4 : a4.IsWhole)
    (a5 : Memref sig .tc .vmem S1024x512 .f32) (h5 : a5.IsWhole) (a6 : Memref sig .tc .vmem S512x4096 .bf16) (h6 : a6.IsWhole)
    (hc : ¬cond0_0 i) (x0 : Vec F S1024x4096 .bf16) (x1 : Vec F S512x4096 .i32) (x2 : Vec F S1x512 .f32)
    (xs : Vec F S512x4096 .bf16) :
    out0_B_3 c i a2 h2 a3 h3 a4 h4 a5 h5 a6 h6 hc x0 x1 x2 xs = k0_pay2 x0 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz]
  simp only [View.readAt_eq_ld, h2.read_unread, h6.read_unread, h4.read_unread, View.ld_unit_zero (S := S1024x4096) hz,
    View.ld_unit_zero (S := S512x4096) hz, View.ld_unit_zero (S := S1x512) hz]

end Cert.KernelIdeal.Pieces

end
-- ==== Proof.Carried.lean ====
/-
  The scratch buffer across the grid.

  The grid is 22 outer tiles (output-channel tiles) by 8 inner steps (row tiles), walked with the inner step
  fastest: point `n` is inner step `n % 8` of outer tile `n / 8`. The weight tile depends on the outer tile only.
  The body converts it at inner step 0 and leaves the scratch buffer alone afterwards, so after ANY point `n`
  the scratch buffer holds the converted weight tile of the first point `8 * (n / 8)` of `n`'s outer tile —
  by induction on the point — and the output tile every point leaves is the product payload over that cached
  tile, whichever case the point falls in.
-/
import proofs.«154673_j1726576855246_2_alg».proof.Proof.Pieces

noncomputable section

open Idealize.ShloMosaic Idealize.ShloMosaic.TcCoe Idealize.SL.Sem

namespace Cert.KernelIdeal.Carried

open Cert.KernelIdeal Cert.KernelIdeal.Gen

variable {F : FTy → Type} [FloatOps F]
variable (m : (ℓ : Loc nD τ sig) → Buf (Elt F) ℓ)

/-- The first point of a point's outer tile is a point of the grid. -/
theorem tileStart_lt {n : ℕ} (h : n < cfg0.N) : 8 * (n / 8) < cfg0.N := by
  have hN : cfg0.N = 176 := N_0
  omega

/-- The converted weight tile of point `n`'s outer tile: the conversion payload of the weight window's block at
    the outer tile's first point. -/
def cached (c : Dev nD) (n : ℕ) (h : n < cfg0.N) : Vec F S512x4096 .bf16 :=
  k0_pay1 (iblk m c 1 ⟨8 * (n / 8), tileStart_lt h⟩)

/-- At the first point of an outer tile the cached tile is the conversion of that point's own weight block. -/
theorem cached_of_first (c : Dev nD) (t : Fin cfg0.N) (h0 : t.val % 8 = 0) :
    cached m c t.val t.isLt = k0_pay1 (iblk m c 1 t) := by
  unfold cached
  have e : (⟨8 * (t.val / 8), tileStart_lt t.isLt⟩ : Fin cfg0.N) = t := Fin.ext (by dsimp only; omega)
  rw [e]

/-- Inside an outer tile the cached tile does not change from one point to the next. -/
theorem cached_of_later (c : Dev nD) (n : ℕ) (h : n + 1 < cfg0.N) (h0 : ¬(n + 1) % 8 = 0) :
    cached m c (n + 1) h = cached m c n (Nat.lt_of_succ_lt h) := by
  unfold cached
  have e : (⟨8 * ((n + 1) / 8), tileStart_lt h⟩ : Fin cfg0.N) = ⟨8 * (n / 8), tileStart_lt (Nat.lt_of_succ_lt h)⟩ :=
    Fin.ext (by dsimp only; omega)
  rw [e]

/-- After every point the scratch buffer holds the cached tile of that point's outer tile. -/
theorem scratch_eq (c : Dev nD) : ∀ (n : ℕ) (h : n < cfg0.N), (outsAt0 m c n h).2 = cached m c n h
  | 0, h => by
    rw [outsAt0_A m c ⟨0, h⟩ rfl]
    dsimp only
    exact (Pieces.scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr rfl)
      (iblk m c 0 ⟨0, h⟩) (iblk m c 1 ⟨0, h⟩) (iblk m c 2 ⟨0, h⟩)).trans (cached_of_first m c ⟨0, h⟩ rfl).symm
  | n + 1, h => by
    by_cases h0 : (n + 1) % 8 = 0
    · rw [outsAt0_A m c ⟨n + 1, h⟩ h0]
      dsimp only
      exact (Pieces.scratch_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) ((hcond0_0 ⟨n + 1, h⟩).mpr h0)
        (iblk m c 0 ⟨n + 1, h⟩) (iblk m c 1 ⟨n + 1, h⟩) (iblk m c 2 ⟨n + 1, h⟩)).trans (cached_of_first m c ⟨n + 1, h⟩ h0).symm
    · rw [outsAt0_B m c ⟨n + 1, h⟩ h0]
      dsimp only
      unfold sout0_B_0
      show (outsAt0 m c n _).2 = _
      rw [scratch_eq c n, cached_of_later m c n h h0]

/-- The output tile every point leaves: the product payload of the point's x block, the cached weight tile of
    its outer tile, and its scale block. -/
theorem out_eq (c : Dev nD) (t : Fin cfg0.N) :
    (outsAt0 m c t.val t.isLt).1 = k0_pay2 (iblk m c 0 t) (cached m c t.val t.isLt) (iblk m c 2 t) := by
  by_cases h0 : t.val % 8 = 0
  · rw [outsAt0_A m c t h0]
    dsimp only
    rw [cached_of_first m c t h0]
    exact Pieces.out_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
  · rw [outsAt0_B m c t h0]
    dsimp only
    obtain ⟨n, hn⟩ := t
    cases n with
    | zero => exact absurd (Nat.zero_mod 8) h0
    | succ n =>
      refine (Pieces.out_later c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h))
        (iblk m c 0 ⟨n + 1, hn⟩) (iblk m c 1 ⟨n + 1, hn⟩) (iblk m c 2 ⟨n + 1, hn⟩) _).trans ?_
      show k0_pay2 _ (outsAt0 m c n _).2 _ = _
      rw [scratch_eq m c n, cached_of_later m c n hn h0]

end Cert.KernelIdeal.Carried

end
-- ==== Proof.PayloadAt.lean ====
/-
  The two payloads of the body, read at one index, over the extended reals.

  * The conversion payload turns the integer weight tile into floats: at every index it is the integer, read
    signed, as a real number (the narrowing to bf16 is the identity on exact values).
  * The product payload contracts the x tile `[1024, 4096]` with the cached tile `[512, 4096]` over their
    shared last axis into a zero accumulator and multiplies by the scale row `[1, 512]` broadcast down the rows:
    at `(r, q)` it is `(∑ k, x (r, k) * w (q, k)) * s (0, q)`.
-/
import proofs.«154673_j1726576855246_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.PayloadAt

open Cert.KernelIdeal Cert.KernelIdeal.Gen

/-- The conversion payload at an index: the weight, read as a signed integer, as a real. -/
theorem convert_apply (x1 : IVec S512x4096 32) (y : S512x4096.Idx) :
    k0_pay1 (F := Ideal) x1 y = (((x1 y).toInt : ℝ) : EReal) := by
  unfold k0_pay1
  rw [shapeCast_self, shapeCast_self]
  rfl

/-! ### The contraction's operand indices: output `(r, q)` and contraction position `k` read x at `(r, k)` and the
    cached tile at `(q, k)` -/

theorem lhs_row (j : S1024x512.Idx) (p : dot_S1024x4096_S512x4096_S1024x512_1_1_0_0_n_n.contr.Idx) :
    (dot_S1024x4096_S512x4096_S1024x512_1_1_0_0_n_n.lhsIdx j p 0).val = (j 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
theorem lhs_col (j : S1024x512.Idx) (p : dot_S1024x4096_S512x4096_S1024x512_1_1_0_0_n_n.contr.Idx) :
    (dot_S1024x4096_S512x4096_S1024x512_1_1_0_0_n_n.lhsIdx j p 1).val = (p ⟨0, by decide⟩).val :=
  dot_S1024x4096_S512x4096_S1024x512_1_1_0_0_n_n.lhsIdx_val_of_single rfl j p
theorem rhs_row (j : S1024x512.Idx) (p : dot_S1024x4096_S512x4096_S1024x512_1_1_0_0_n_n.contr.Idx) :
    (dot_S1024x4096_S512x4096_S1024x512_1_1_0_0_n_n.rhsIdx j p 0).val = (j 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
theorem rhs_col (j : S1024x512.Idx) (p : dot_S1024x4096_S512x4096_S1024x512_1_1_0_0_n_n.contr.Idx) :
    (dot_S1024x4096_S512x4096_S1024x512_1_1_0_0_n_n.rhsIdx j p 1).val = (p ⟨0, by decide⟩).val :=
  dot_S1024x4096_S512x4096_S1024x512_1_1_0_0_n_n.rhsIdx_val_of_single rfl j p

/-- The contraction into the zero accumulator at `(r, q)`: the sum over `k` of `x (r, k) * w (q, k)`. -/
theorem contract_apply (x0 : FVec Ideal S1024x4096 .bf16) (x5 : FVec Ideal S512x4096 .bf16) (r : Fin 1024) (q : Fin 512) :
    matmul dot_S1024x4096_S512x4096_S1024x512_1_1_0_0_n_n none x0 x5 (constant (F := Ideal) S1024x512 .f32 0x00000000#32) (ix2 r q)
      = ∑ k : Fin 4096, x0 (ix2 r k) * x5 (ix2 q k) := by
  simp only [matmul]
  rw [Ideal.matmul_constant_zero_apply, ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 r q) ((contrEquiv1 dot_S1024x4096_S512x4096_S1024x512_1_1_0_0_n_n 4096 rfl rfl).symm k) = ix2 r k := funext fun a => Fin.ext (by
    match a with
    | ⟨0, _⟩ => exact lhs_row _ _
    | ⟨1, _⟩ => exact (lhs_col _ _).trans hk)
  have er : dot_S1024x4096_S512x4096_S1024x512_1_1_0_0_n_n.rhsIdx (ix2 r q) ((contrEquiv1 dot_S1024x4096_S512x4096_S1024x512_1_1_0_0_n_n 4096 rfl rfl).symm k) = ix2 q k := funext fun a => Fin.ext (by
    match a with
    | ⟨0, _⟩ => exact rhs_row _ _
    | ⟨1, _⟩ => exact (rhs_col _ _).trans hk)
  rw [el, er]

/-- The product payload at `(r, q)`: `(∑ k, x (r, k) * w (q, k)) * s (0, q)`. -/
theorem product_apply (x0 : FVec Ideal S1024x4096 .bf16) (x5 : FVec Ideal S512x4096 .bf16) (x7 : FVec Ideal S1x512 .f32)
    (r : Fin 1024) (q : Fin 512) :
    k0_pay2 (F := Ideal) x0 x5 x7 (ix2 r q) = (∑ k : Fin 4096, x0 (ix2 r k) * x5 (ix2 q k)) * x7 (ix2 (0 : Fin 1) q) := by
  unfold k0_pay2
  rw [shapeCast_self, shapeCast_self]
  refine (mulf_apply _ _ (ix2 r q)).trans ?_
  rw [contract_apply x0 x5 r q, broadcastTo_1b_ab_apply x7 _ r q]

end Cert.KernelIdeal.PayloadAt

end
-- ==== Proof.Blocks.lean ====
/-
  From tiles to the whole padded output array.

  Grid point `n` is inner step `n % 8` of outer tile `n / 8`. Its x block is rows `1024 * (n % 8) + r` of the
  merged x; its weight block is rows `512 * (n / 8) + q` of the padded weight; its scale block is columns
  `512 * (n / 8) + q` of the scale row; and it writes back tile `(n % 8, n / 8)` of the padded output
  `[8192, 11264]`. So what point `n` writes back is ITS tile of ONE function of the whole arrays,

      out (p, o) = (∑ k, x (p, k) * (w (o, k) as a real)) * scale (0, o),

  and, the 8 × 22 tiles covering the padded output, the array ends holding that function.
-/
import proofs.«154673_j1726576855246_2_alg».proof.Proof.Carried
import proofs.«154673_j1726576855246_2_alg».proof.Proof.PayloadAt

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The four index maps over the grid: x moves with the inner step, weight and scale with the outer tile, the
    output with both. -/
theorem idx_facts : ∀ t : Fin cfg0.N,
    win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = 0 ∧ win0_2.index t (1 : Fin 2) = t.val / 8
    ∧ win0_3.index t (0 : Fin 2) = t.val % 8 ∧ win0_3.index t (1 : Fin 2) = t.val / 8 :=
  (by decide +kernel : ∀ t : Fin grid0.N, _)

/-- The row of the merged x (and of the output) that local row `r` of point `n`'s tile is. -/
def rowOf (n : ℕ) (r : Fin 1024) : Fin 8192 := ⟨1024 * (n % 8) + r.val, by have := r.isLt; omega⟩

/-- The output channel that local column `q` of point `n`'s tile is. -/
def colOf (n : ℕ) (h : n < cfg0.N) (q : Fin 512) : Fin 11264 :=
  ⟨512 * (n / 8) + q.val, by have hN : cfg0.N = 176 := N_0; have := q.isLt; omega⟩

/-- The merged x, the padded weight and the scale row as the region finds them, at their plain types. -/
def xArr (c : Dev nD) : S8192x4096.Idx → EReal := V m c main_v1
def wArr (c : Dev nD) : S11264x4096.Idx → BitVec 32 := V m c main_v2
def sArr (c : Dev nD) : S1x11264.Idx → EReal := V m c main_v4

/-- The x block of a point, read as the merged x. -/
theorem xblk_apply (c : Dev nD) (t : Fin cfg0.N) (r : Fin 1024) (k : Fin 4096) :
    (iblk m c 0 t : FVec Ideal S1024x4096 .bf16) (ix2 r k) = xArr m c (ix2 (rowOf t.val r) k) := by
  obtain ⟨e0, e1, -⟩ := idx_facts t
  show V m c main_v1 (((cfg0.win 0).blk t).view.emb (ix2 r k)) = V m c main_v1 (ix2 (rowOf t.val r) k)
  refine congrArg (V m c main_v1) (funext fun a => Fin.ext ?_)
  match a with
  | ⟨0, _⟩ => show win0_0.index t (0 : Fin 2) * 1024 + 1 * r.val = 1024 * (t.val % 8) + r.val; rw [e0]; omega
  | ⟨1, _⟩ => show win0_0.index t (1 : Fin 2) * 4096 + 1 * k.val = k.val; rw [e1]; omega

/-- The weight block of a point, read as the padded weight. -/
theorem wblk_apply (c : Dev nD) (t : Fin cfg0.N) (q : Fin 512) (k : Fin 4096) :
    (iblk m c 1 t : IVec S512x4096 32) (ix2 q k) = wArr m c (ix2 (colOf t.val t.isLt q) k) := by
  obtain ⟨-, -, e2, e3, -⟩ := idx_facts t
  show V m c main_v2 (((cfg0.win 1).blk t).view.emb (ix2 q k)) = V m c main_v2 (ix2 (colOf t.val t.isLt q) k)
  refine congrArg (V m c main_v2) (funext fun a => Fin.ext ?_)
  match a with
  | ⟨0, _⟩ => show win0_1.index t (0 : Fin 2) * 512 + 1 * q.val = 512 * (t.val / 8) + q.val; rw [e2]; omega
  | ⟨1, _⟩ => show win0_1.index t (1 : Fin 2) * 4096 + 1 * k.val = k.val; rw [e3]; omega

/-- The scale block of a point, read as the scale row. -/
theorem sblk_apply (c : Dev nD) (t : Fin cfg0.N) (q : Fin 512) :
    (iblk m c 2 t : FVec Ideal S1x512 .f32) (ix2 (0 : Fin 1) q) = sArr m c (ix2 (0 : Fin 1) (colOf t.val t.isLt q)) := by
  obtain ⟨-, -, -, -, e4, e5, -⟩ := idx_facts t
  show V m c main_v4 (((cfg0.win 2).blk t).view.emb (ix2 (0 : Fin 1) q)) = V m c main_v4 (ix2 (0 : Fin 1) (colOf t.val t.isLt q))
  refine congrArg (V m c main_v4) (funext fun a => Fin.ext ?_)
  match a with
  | ⟨0, _⟩ => show win0_2.index t (0 : Fin 2) * 1 + 1 * 0 = 0; rw [e4]
  | ⟨1, _⟩ => show win0_2.index t (1 : Fin 2) * 512 + 1 * q.val = 512 * (t.val / 8) + q.val; rw [e5]; omega

/-- The cached tile of a point's outer tile, read as the padded weight converted to reals. -/
theorem cached_apply (c : Dev nD) (n : ℕ) (h : n < cfg0.N) (q : Fin 512) (k : Fin 4096) :
    (Carried.cached m c n h : FVec Ideal S512x4096 .bf16) (ix2 q k)
      = (((wArr m c (ix2 (colOf n h q) k)).toInt : ℝ) : EReal) := by
  unfold Carried.cached
  refine (PayloadAt.convert_apply _ _).trans ?_
  rw [wblk_apply m c ⟨8 * (n / 8), Carried.tileStart_lt h⟩ q k]
  have e : colOf (8 * (n / 8)) (Carried.tileStart_lt h) q = colOf n h q :=
    Fin.ext (by show 512 * (8 * (n / 8) / 8) + q.val = 512 * (n / 8) + q.val; omega)
  rw [e]

/-- The padded output as one function of the arrays the region finds. -/
def tileFn (c : Dev nD) : S8192x11264.Idx → EReal := fun i =>
  (∑ k : Fin 4096, xArr m c (ix2 (⟨(i 0).val, idx2_lt0 i⟩ : Fin 8192) k)
      * (((wArr m c (ix2 (⟨(i 1).val, idx2_lt1 i⟩ : Fin 11264) k)).toInt : ℝ) : EReal))
    * sArr m c (ix2 (0 : Fin 1) (⟨(i 1).val, idx2_lt1 i⟩ : Fin 11264))

/-- What a point writes back is its tile of that function. -/
theorem flushed_eq (c : Dev nD) (t : Fin cfg0.N) :
    (dats m 0 c).flushed 3 t = ((cfg0.win 3).blk t).view.read (Elt Ideal) (tileFn m c) := by
  show (cfg0.win 3).cut (grid0.coords t) ((dats m 0 c).after 3 t) = _
  rw [after0_3, Carried.out_eq]
  obtain ⟨-, -, -, -, -, -, e6, e7⟩ := idx_facts t
  funext j
  obtain ⟨r, q, rfl⟩ : ∃ (r : Fin 1024) (q : Fin 512), j = ix2 r q := ⟨j 0, j 1, eq_ix2 j⟩
  have hemb : ((cfg0.win 3).blk t).view.emb (ix2 r q) = ix2 (rowOf t.val r) (colOf t.val t.isLt q) := by
    funext a; apply Fin.ext
    match a with
    | ⟨0, _⟩ => show win0_3.index t (0 : Fin 2) * 1024 + 1 * r.val = 1024 * (t.val % 8) + r.val; rw [e6]; omega
    | ⟨1, _⟩ => show win0_3.index t (1 : Fin 2) * 512 + 1 * q.val = 512 * (t.val / 8) + q.val; rw [e7]; omega
  show k0_pay2 (iblk m c 0 t) (Carried.cached m c t.val t.isLt) (iblk m c 2 t) (ix2 r q)
    = tileFn m c (((cfg0.win 3).blk t).view.emb (ix2 r q))
  rw [hemb]
  refine (PayloadAt.product_apply (iblk m c 0 t) (Carried.cached m c t.val t.isLt) (iblk m c 2 t) r q).trans ?_
  unfold tileFn
  refine congrArg₂ (· * ·) (Finset.sum_congr rfl fun k _ => ?_) ?_
  · rw [xblk_apply m c t r k, cached_apply m c t.val t.isLt q k]
  · exact sblk_apply m c t q

/-- An index of the padded output is in a point's tile iff each coordinate is in the tile's range. -/
theorem mem_blk (t : Fin cfg0.N) (i : S8192x11264.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v5).slice (win0_3.rect t)).set ↔ _
  rw [View.set_slice_whole, Rect.mem_set_unit]
  exact Iff.rfl

/-- Every index of the padded output is in some point's tile: the point of outer tile `o / 512`, inner step `p / 1024`. -/
theorem cover (i : S8192x11264.Idx) : ∃ t : Fin cfg0.N, (cfg0.win 3).flush t = true ∧ i ∈ ((cfg0.win 3).blk t).view.set := by
  have hi0 : (i 0).val < 8192 := idx2_lt0 i
  have hi1 : (i 1).val < 11264 := idx2_lt1 i
  have hN : cfg0.N = 176 := N_0
  have hlt : 8 * ((i 1).val / 512) + (i 0).val / 1024 < cfg0.N := by omega
  refine ⟨⟨8 * ((i 1).val / 512) + (i 0).val / 1024, hlt⟩, flush0_3 _, ?_⟩
  rw [mem_blk]
  obtain ⟨-, -, -, -, -, -, e6, e7⟩ := idx_facts ⟨8 * ((i 1).val / 512) + (i 0).val / 1024, hlt⟩
  intro a
  match a with
  | ⟨0, _⟩ =>
    show win0_3.index ⟨8 * ((i 1).val / 512) + (i 0).val / 1024, hlt⟩ (0 : Fin 2) * 1024 ≤ (i 0).val
      ∧ (i 0).val < win0_3.index ⟨8 * ((i 1).val / 512) + (i 0).val / 1024, hlt⟩ (0 : Fin 2) * 1024 + 1024
    rw [e6]; dsimp only; omega
  | ⟨1, _⟩ =>
    show win0_3.index ⟨8 * ((i 1).val / 512) + (i 0).val / 1024, hlt⟩ (1 : Fin 2) * 512 ≤ (i 1).val
      ∧ (i 1).val < win0_3.index ⟨8 * ((i 1).val / 512) + (i 0).val / 1024, hlt⟩ (1 : Fin 2) * 512 + 512
    rw [e7]; dsimp only; omega

/-- The padded output after the run is that function. -/
theorem final (c : Dev nD) : (dats m 0 c).arrAt 3 cfg0.N = tileFn m c :=
  (dats m 0 c).arrAt_eq_of_cover 3 (tileFn m c) (fun t _ => flushed_eq m c t) cover

end Cert.KernelIdeal.Blocks

end
-- ==== Proof.HostSide.lean ====
/-
  The arrays the kernel's region finds, as functions of the program's arguments.

  Before the region the program (1) merges the two leading axes of `x` `[4, 2048, 4096]` into `[8192, 4096]`
  and narrows it to bf16 — at exact values only the re-indexing is left: row `p = 2048 * b + s` is `x (b, s, ·)`;
  (2) pads the weight `[11008, 4096]` with 256 zero rows to `[11264, 4096]`, and (3) pads the scale `[11008]`
  with 256 zeros and views it as one row `[1, 11264]`. Below row / column 11008 a padded array is the
  argument itself; the padding is never needed, because the program slices it away again after the region.
-/
import proofs.«154673_j1726576855246_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.HostSide

open Cert.KernelIdeal Cert.KernelIdeal.Gen

variable (m : (ℓ : Loc nD τ sig) → Buf (Elt Ideal) ℓ)

/-- `x` as the region finds it: the argument with its two leading axes merged (and narrowed). -/
theorem x_eq (c : Dev nD) : (V m c main_v1 : FVec Ideal S8192x4096 .bf16)
    = truncf (F := Ideal) .bf16 (shapeCast S8192x4096 (m ((c : Thread nD τ).loc main_arg0)) shapeCasts_S4x2048x4096_S8192x4096) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The weight as the region finds it: the argument padded with 256 rows of the integer zero. -/
theorem w_eq (c : Dev nD) : (V m c main_v2 : IVec S11264x4096 32)
    = pad S11264x4096 ![0, 0] ![256, 0] ![0, 0] (m ((c : Thread nD τ).loc main_arg1)) (constantI S_ 32 0#32)
        pads_S11008x4096_S11264x4096_02560_000 h_S_ := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The scale as the region finds it: the argument padded with 256 zeros, as one row. -/
theorem s_eq (c : Dev nD) : (V m c main_v4 : FVec Ideal S1x11264 .f32)
    = shapeCast S1x11264 (pad S11264 ![0] ![256] ![0] (m ((c : Thread nD τ).loc main_arg2))
        (sitofp (F := Ideal) .f32 (constantI S_ 32 0#32)) pads_S11008_S11264_02560 h_S_) shapeCasts_S11264_S1x11264 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- Row `2048 * b + s` of the merged `x` is `x (b, s, ·)`. -/
theorem x_apply (c : Dev nD) (b : Fin 4) (s : Fin 2048) (k : Fin 4096) (p : Fin 8192) (hp : p.val = 2048 * b.val + s.val) :
    (V m c main_v1 : FVec Ideal S8192x4096 .bf16) (ix2 p k) = m ((c : Thread nD τ).loc main_arg0) (ix3 b s k) := by
  refine (congrFun (x_eq m c) (ix2 p k)).trans ?_
  refine (truncf_apply (φ := .f32) (ψ := .bf16) _ bitsLt_bf16_f32 (ix2 p k)).trans ?_
  exact shapeCast_apply _ _ (ix2 p k) (ix3 b s k) (by
    rw [Shape.rowMajor_val_three, Shape.rowMajor_val_two]
    show (b.val * 2048 + s.val) * 4096 + k.val = p.val * 4096 + k.val
    rw [hp]; ring)

/-- Below row 11008 the padded weight is the weight. -/
theorem w_apply (c : Dev nD) (n : Fin 11264) (hn : n.val < 11008) (k : Fin 4096) :
    (V m c main_v2 : IVec S11264x4096 32) (ix2 n k) = m ((c : Thread nD τ).loc main_arg1) (ix2 (⟨n.val, hn⟩ : Fin 11008) k) := by
  refine (congrFun (w_eq m c) (ix2 n k)).trans ?_
  unfold pad
  split
  · refine congrArg _ (funext fun a => Fin.ext ?_)
    match a with
    | ⟨0, _⟩ => show (n.val - 0) / (0 + 1) = n.val; omega
    | ⟨1, _⟩ => show (k.val - 0) / (0 + 1) = k.val; omega
  · rename_i hne
    refine absurd (fun a => ?_) hne
    match a with
    | ⟨0, _⟩ => show 0 ≤ n.val ∧ (n.val - 0) % (0 + 1) = 0 ∧ (n.val - 0) / (0 + 1) < 11008; omega
    | ⟨1, _⟩ => show 0 ≤ k.val ∧ (k.val - 0) % (0 + 1) = 0 ∧ (k.val - 0) / (0 + 1) < 4096; have := k.isLt; omega

/-- Below column 11008 the padded scale row is the scale. -/
theorem s_apply (c : Dev nD) (n : Fin 11264) (hn : n.val < 11008) :
    (V m c main_v4 : FVec Ideal S1x11264 .f32) (ix2 (0 : Fin 1) n) = m ((c : Thread nD τ).loc main_arg2) (ix1 (⟨n.val, hn⟩ : Fin 11008)) := by
  refine (congrFun (s_eq m c) (ix2 (0 : Fin 1) n)).trans ?_
  refine (shapeCast_a_1a_apply _ _ (0 : Fin 1) n).trans ?_
  unfold pad
  split
  · refine congrArg _ (funext fun a => Fin.ext ?_)
    match a with
    | ⟨0, _⟩ => show (n.val - 0) / (0 + 1) = n.val; omega
  · rename_i hne
    refine absurd (fun a => ?_) hne
    match a with
    | ⟨0, _⟩ => show 0 ≤ n.val ∧ (n.val - 0) % (0 + 1) = 0 ∧ (n.val - 0) / (0 + 1) < 11008; omega

end Cert.KernelIdeal.HostSide

end
-- ==== Proof.ScaleLaw.lean ====
/-
  The one algebraic law that joins the two programs.

  The kernel multiplies each row-by-row product sum by the output channel's scale AFTER the sum,
  `(∑ k, x k * w k) * s`; the reference scales every weight BEFORE the sum, `∑ k, x k * (w k * s)`.
  On the extended reals a factor moves across a sum only where the terms are finite (at `+∞ + -∞`
  distributivity fails), so the law is stated for REAL terms read as extended reals; it is then the
  distributive law of ℝ.
-/
import Idealize.ShloMosaic.PureOps.Ideal

noncomputable section

namespace Cert.DequantLaw

open scoped BigOperators

/-- A finite sum of reals, each read as an extended real, is the real sum read as an extended real. -/
theorem sum_coe {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- Scaling every weight before the sum is scaling the sum: for real `x k`, `w k` and a real scale `s`,
    `∑ k, x k * (w k * s) = (∑ k, x k * w k) * s` as extended reals. -/
theorem sum_mul_scale {ι : Type*} [Fintype ι] (x w : ι → ℝ) (s : ℝ) :
    (∑ k, ((x k : ℝ) : EReal) * (((w k : ℝ) : EReal) * ((s : ℝ) : EReal)))
      = (∑ k, ((x k : ℝ) : EReal) * ((w k : ℝ) : EReal)) * ((s : ℝ) : EReal) := by
  simp only [← EReal.coe_mul, sum_coe]
  rw [Finset.sum_mul]
  exact congrArg _ (Finset.sum_congr rfl fun k _ => by ring)

end Cert.DequantLaw

end
-- ==== Proof.Spec.lean ====
/-
  The result, stated once, in the two arrangements the two programs compute it in.

  For `x : [4, 2048, 4096]`, an integer weight `w : [11008, 4096]` and a scale `s : [11008]`, the result at
  `(b, t, o)` is the row `x (b, t, ·)` against the dequantized weight row `o`. The reference scales every weight
  first, `∑ k, x (b, t, k) * (w (o, k) * s o)`; the kernel scales the finished sum, `(∑ k, x (b, t, k) * w (o, k)) * s o`.
  They agree when `x` and `s` hold real numbers (an integer is always one): the distributive law of ℝ.
-/
import Idealize.ShloMosaic.Lib.ValueIdx
import proofs.«154673_j1726576855246_2_alg».proof.Proof.ScaleLaw

noncomputable section

open Idealize.ShloMosaic Idealize.ShloMosaic.ValueIdx

namespace Cert.DequantSpec

abbrev SX : Shape := ⟨3, ![4, 2048, 4096]⟩
abbrev SW : Shape := ⟨2, ![11008, 4096]⟩
abbrev SS : Shape := ⟨1, ![11008]⟩
abbrev SO : Shape := ⟨3, ![4, 2048, 11008]⟩

/-- The three coordinates of a result index: batch, position, output channel. -/
def bOf (i : SO.Idx) : Fin 4 := ⟨(i 0).val, (i 0).isLt⟩
def tOf (i : SO.Idx) : Fin 2048 := ⟨(i 1).val, (i 1).isLt⟩
def oOf (i : SO.Idx) : Fin 11008 := ⟨(i 2).val, (i 2).isLt⟩

/-- The kernel's arrangement: the scale applied to the finished sum. -/
def scaleAfter (x : SX.Idx → EReal) (w : SW.Idx → BitVec 32) (s : SS.Idx → EReal) : SO.Idx → EReal := fun i =>
  (∑ k : Fin 4096, x (ix3 (bOf i) (tOf i) k) * (((w (ix2 (oOf i) k)).toInt : ℝ) : EReal)) * s (ix1 (oOf i))

/-- The reference's arrangement: every weight scaled before the sum. -/
def scaleBefore (x : SX.Idx → EReal) (w : SW.Idx → BitVec 32) (s : SS.Idx → EReal) : SO.Idx → EReal := fun i =>
  ∑ k : Fin 4096, x (ix3 (bOf i) (tOf i) k) * ((((w (ix2 (oOf i) k)).toInt : ℝ) : EReal) * s (ix1 (oOf i)))

/-- On real `x` and `s` the two arrangements are one function. -/
theorem scaleBefore_eq_scaleAfter (x : SX.Idx → EReal) (w : SW.Idx → BitVec 32) (s : SS.Idx → EReal)
    (hx : ∀ i, ∃ r : ℝ, x i = (r : EReal)) (hs : ∀ i, ∃ r : ℝ, s i = (r : EReal)) :
    scaleBefore x w s = scaleAfter x w s := by
  choose xr hxr using hx
  choose sr hsr using hs
  funext i
  unfold scaleBefore scaleAfter
  simp only [hxr, hsr]
  exact Cert.DequantLaw.sum_mul_scale (fun k => xr (ix3 (bOf i) (tOf i) k)) (fun k => ((w (ix2 (oOf i) k)).toInt : ℝ))
    (sr (ix1 (oOf i)))

end Cert.DequantSpec

end
-- ==== Proof.Tail.lean ====
/-
  The kernel program's result, as a function of its arguments.

  After the region the program slices the padded output `[8192, 11264]` back to `[8192, 11008]` and splits the
  rows into `[4, 2048, 11008]`: result `(b, t, o)` is padded-output entry `(2048 * b + t, o)`, a column below
  11008. There the merged x is `x (b, t, ·)`, the padded weight is the weight and the padded scale is the scale,
  so the result is the scale-after arrangement of the three arguments.
-/
import proofs.«154673_j1726576855246_2_alg».proof.Proof.Blocks
import proofs.«154673_j1726576855246_2_alg».proof.Proof.HostSide
import proofs.«154673_j1726576855246_2_alg».proof.Proof.Spec
import Idealize.ShloMosaic.Lib.StableHlo.Run

noncomputable section

open Idealize.ShloMosaic Idealize.ShloMosaic.TcCoe Idealize.SL.Sem Idealize.ShloMosaic.ValueIdx

namespace Cert.KernelIdeal.Tail

open Cert.KernelIdeal Cert.KernelIdeal.Gen Cert.DequantSpec

variable (m : (ℓ : Loc nD τ sig) → Buf (Elt Ideal) ℓ) (ρ : Dev nD → PrngReg)

/-- The output window's array, as the operations after the region find it, is the padded output function. -/
theorem region_out (c : Dev nD) :
    Pipeline.withArrays (cfgs 0).spec c (V0 m c) (fun w => (dats m 0 c).arrAt w (cfgs 0).N) (Proc.devRef .tc main_v5)
      = Blocks.tileFn m c :=
  (Pipeline.withArrays_arr spec0 launch0.win.arr_inj c _ _ 3).trans (Blocks.final m c)

/-- The program's result is the slice and row split of the padded output function. -/
theorem tail_eq (c : Dev nD) :
    (Pipeline.afterTail₀ cfgs (dats m) 0 (V0 m) [hostOps1] c main_v7 : SO.Idx → EReal)
      = shapeCast S4x2048x11008 (extractStridedSlice S8192x11008 ![0, 0] (Blocks.tileFn m c) slices_S8192x11264_S8192x11008_0_0)
          shapeCasts_S8192x11008_S4x2048x11008 := by
  unfold Pipeline.afterTail₀
  show StableHlo.after hostOps1 _ (Proc.devRef .tc main_v7) = _
  after_results
  rw [region_out]
  rfl

/-- The program's result is the scale-after arrangement of its arguments. -/
theorem result_eq (c : Dev nD) :
    (Pipeline.afterTail₀ cfgs (dats m) 0 (V0 m) [hostOps1] c main_v7 : SO.Idx → EReal)
      = scaleAfter (m ((c : Thread nD τ).loc main_arg0)) (m ((c : Thread nD τ).loc main_arg1)) (m ((c : Thread nD τ).loc main_arg2)) := by
  rw [tail_eq]
  funext i
  have hb : (bOf i).val < 4 := (bOf i).isLt
  have ht : (tOf i).val < 2048 := (tOf i).isLt
  have ho : (oOf i).val < 11008 := (oOf i).isLt
  have hp : 2048 * (bOf i).val + (tOf i).val < 8192 := by omega
  have ho' : (oOf i).val < 11264 := by omega
  refine (shapeCast_apply _ _ i (ix2 (⟨2048 * (bOf i).val + (tOf i).val, hp⟩ : Fin 8192) (oOf i)) ?_).trans ?_
  · rw [Shape.rowMajor_val_two, Shape.rowMajor_val_three]
    show (2048 * (i 0).val + (i 1).val) * 11008 + (i 2).val = ((i 0).val * 2048 + (i 1).val) * 11008 + (i 2).val
    omega
  refine (extractStridedSlice_apply _ _ _ (ix2 (⟨2048 * (bOf i).val + (tOf i).val, hp⟩ : Fin 8192) (oOf i))
    (ix2 (⟨2048 * (bOf i).val + (tOf i).val, hp⟩ : Fin 8192) (⟨(oOf i).val, ho'⟩ : Fin 11264)) (fun a => by
      match a with
      | ⟨0, _⟩ => exact (Nat.zero_add _).symm
      | ⟨1, _⟩ => exact (Nat.zero_add _).symm)).trans ?_
  unfold Blocks.tileFn scaleAfter
  refine congrArg₂ (· * ·) (Finset.sum_congr rfl fun k _ => ?_) ?_
  · exact congrArg₂ (· * ·) (HostSide.x_apply m c (bOf i) (tOf i) k ⟨2048 * (bOf i).val + (tOf i).val, hp⟩ rfl)
      (congrArg (fun v : BitVec 32 => ((v.toInt : ℝ) : EReal)) (HostSide.w_apply m c ⟨(oOf i).val, ho'⟩ ho k))
  · exact HostSide.s_apply m c ⟨(oOf i).val, ho'⟩ ho

/-- The run of the kernel program, read: its result at the scale-after arrangement of the arguments, the arguments unchanged. -/
theorem run : θ_run defs (onTc (τ := τ) (main (F := Ideal))) ⟨m, fun _ => 0, ρ⟩ fun r => ∀ c : Dev nD,
      r.2.mem ((c.tc : Thread nD τ).loc main_v7)
        = scaleAfter (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Tail

end
-- ==== Proof.RefValue.lean ====
/-
  The reference, index by index: its convert, two broadcasts, multiply and `dot_general` are, at `(b, t, o)`,
  `∑ k, x (b, t, k) * (w (o, k) * s o)` with the weight read as a signed integer — the scale-before arrangement.
-/
import proofs.«154673_j1726576855246_2_alg».proof.Proof.Gen.ReferenceIdeal.Read
import proofs.«154673_j1726576855246_2_alg».proof.Proof.Spec

noncomputable section

open Idealize.ShloMosaic Idealize.ShloMosaic.ValueIdx

namespace Cert.ReferenceIdeal.RefValue

open Cert.ReferenceIdeal Cert.ReferenceIdeal.Read Cert.DequantSpec

/-- The reference's last stage is the scale-before arrangement of its three arguments. -/
theorem stage_eq (x0 : SX.Idx → EReal) (x1 : SW.Idx → BitVec 32) (x2 : SS.Idx → EReal) :
    val_main_v4 (F := Ideal) x0 x1 x2 = scaleBefore x0 x1 x2 := by
  funext i
  have e0 : ∀ k, lidx_main_v4 i k = ix3 (bOf i) (tOf i) k := fun k => funext fun a => Fin.ext (by
    match a with | ⟨0, _⟩ => rfl | ⟨1, _⟩ => rfl | ⟨2, _⟩ => rfl)
  have e1 : ∀ k, ridx_main_v4 i k = ix2 (oOf i) k := fun k => funext fun a => Fin.ext (by
    match a with | ⟨0, _⟩ => rfl | ⟨1, _⟩ => rfl)
  have e2 : ∀ k : Fin 4096, idx_main_v1 (idx_main_v2 (ix2 (oOf i) k)) = ix1 (oOf i) := fun k => funext fun a => Fin.ext (by
    match a with | ⟨0, _⟩ => rfl)
  rw [val_main_v4_apply]
  unfold scaleBefore
  refine Finset.sum_congr rfl fun k _ => ?_
  rw [val_main_v3_apply, val_main_v0_apply, val_main_v2_apply, val_main_v1_apply, e0, e1, e2]
  rfl

end Cert.ReferenceIdeal.RefValue

end
-- ==== Proof.Finite.lean ====
/-
  What the precondition says: every entry of `x` and of the scale is a real number.

  The precondition is `all (|x| < +∞) ∧ all (|scale| < +∞)`, computed as two `and`-reductions of comparisons
  against the float `+∞`. An `and`-reduction that is 1 had a 1 at every index; and an extended real whose
  absolute value `max a (-a)` is below `+∞` is neither `+∞` nor `-∞`.
-/
import proofs.«154673_j1726576855246_2_alg».proof.Pre_finite_inputs
import Idealize.ShloMosaic.PureOps.Ideal
import Idealize.ShloMosaic.Lib.ReduceAll
import Idealize.ShloMosaic.Lib.Affine
import Idealize.ShloMosaic.Lib.ValueIdx

noncomputable section

open Idealize.ShloMosaic Idealize.ShloMosaic.ValueIdx

namespace Cert.FiniteInputs

open Cert.Pre_finite_inputs

variable [Cert.Pre_finite_inputs.Facts]

instance : Subsingleton S_.Idx := ⟨fun a b => funext fun d => d.elim0⟩

/-- The float `+∞` is the extended real `⊤`. -/
theorem inf_eq_top : Ideal.ofBits .f32 0x7F800000#32 = (⊤ : EReal) := by simp [Ideal.ofBits, Ideal.ieee]

/-- An extended real whose absolute value compares below `+∞` is a real. -/
theorem real_of_abs_lt_inf (a : EReal) (h : Ideal.cmp .olt (max a (-a)) (Ideal.ofBits .f32 0x7F800000#32) = 1#1) :
    ∃ r : ℝ, a = (r : EReal) := by
  rw [inf_eq_top] at h
  induction a using EReal.rec with
  | bot => simp [Ideal.cmp] at h
  | coe r => exact ⟨r, rfl⟩
  | top => simp [Ideal.cmp] at h

/-- Under the precondition every entry of `x` and every entry of the scale is a real. -/
theorem reals_of_pre (a0 : FVec Ideal S4x2048x4096 .f32) (a1 : IVec S11008x4096 32) (a2 : FVec Ideal S11008 .f32)
    (h : fn (F := Ideal) a0 a1 a2 = fun _ => 1#1) :
    (∀ i, ∃ r : ℝ, a0 i = (r : EReal)) ∧ (∀ i, ∃ r : ℝ, a2 i = (r : EReal)) := by
  have h0 := congrFun h ix0
  dsimp only [fn] at h0
  obtain ⟨hx, hs⟩ := IntOp.andi_eq_one.mp h0
  exact ⟨fun i => real_of_abs_lt_inf _ (Host.reduce_andi_all _ _ _ _ ix0 hx i),
    fun i => real_of_abs_lt_inf _ (Host.reduce_andi_all _ _ _ _ ix0 hs i)⟩

end Cert.FiniteInputs

end
-- ==== Proof.lean ====
/-
  Weight-dequantized dense layer: `out (b, t, o) = ∑ k, x (b, t, k) * (w (o, k) * s o)` for an integer weight `w`
  with one float scale `s o` per output channel.

  The reference computes exactly that: it scales every weight, then contracts. The kernel contracts the
  UNSCALED integer weight (converted once per output-channel tile and cached across the row tiles that share
  it), multiplies the finished sum by the scale, and works on zero-padded channels that are cut away at the end:
  `out (b, t, o) = (∑ k, x (b, t, k) * w (o, k)) * s o`. Over the extended reals the two agree because every entry of
  `x` and `s` is a real number under the precondition (an integer weight always is), and on reals a common factor
  moves across a finite sum.

  The three programs' runs terminate without fault and leave their arguments unchanged; the idealization pass
  rewrote nothing, so there is nothing to preserve; and the two idealized programs end with equal results.
-/
import proofs.«154673_j1726576855246_2_alg».proof.Defs
import proofs.«154673_j1726576855246_2_alg».proof.Proof.Gen.Kernel
import proofs.«154673_j1726576855246_2_alg».proof.Proof.Gen.Kernel.Frame
import proofs.«154673_j1726576855246_2_alg».proof.Proof.Gen.KernelIdeal
import proofs.«154673_j1726576855246_2_alg».proof.Proof.Gen.KernelIdeal.Frame
import proofs.«154673_j1726576855246_2_alg».proof.Proof.Gen.ReferenceIdeal
import proofs.«154673_j1726576855246_2_alg».proof.Proof.Gen.ReferenceIdeal.Run
import proofs.«154673_j1726576855246_2_alg».proof.Proof.Gen.ReferenceIdeal.Read
import proofs.«154673_j1726576855246_2_alg».proof.Proof.Gen.Pre_finite_inputs
import proofs.«154673_j1726576855246_2_alg».proof.Proof.Tail
import proofs.«154673_j1726576855246_2_alg».proof.Proof.RefValue
import proofs.«154673_j1726576855246_2_alg».proof.Proof.Finite
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- From memories agreeing on the arguments both idealized programs end at one result: the kernel's run ends at the
    scale-after arrangement of the arguments, the reference's at the scale-before arrangement, and under the
    precondition `x` and the scale hold reals, where the two arrangements are one function. -/
theorem algebraic : Cert.algebraic_KernelIdeal_ReferenceIdeal := by
  intro m ρ m' ρ' hpre hagree
  refine ⟨fun c => Cert.DequantSpec.scaleAfter
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v4_eq _ _ _).trans ((Cert.ReferenceIdeal.RefValue.stage_eq _ _ _).trans ?_)
  rw [(hagree c).1, (hagree c).2.1, (hagree c).2.2]
  obtain ⟨hx, hs⟩ := Cert.FiniteInputs.reals_of_pre _ _ _ (hpre c)
  exact Cert.DequantSpec.scaleBefore_eq_scaleAfter _ _ _ hx hs

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
